-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x3072, .f32⟩
  | .hbm, ⟨10, _⟩ => ⟨S1024x3072, .bf16⟩
  | .hbm, ⟨11, _⟩ => ⟨S1024x1024, .f32⟩
  | .hbm, ⟨12, _⟩ => ⟨S1024x1024, .bf16⟩
  | .hbm, ⟨13, _⟩ => ⟨S8192x3072, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S256x1024_S256 : S256x1024.Reduces [1] S256
  broadcasts_S256x1_S256x1024 : S256x1.Broadcasts S256x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S_, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BRegion0.lean ====
/-
  The projection call (the first of the two kernel calls): one grid axis of 16 points; point t multiplies rows
  512 t … 512 t + 511 of the flattened activations (8192 x 1024) by the whole 1024 x 3072 weight panel and stores
  the 512 x 3072 product. Everything here is stated at a PARAMETER `V`, the buffer contents the call is entered from:
  what each window's block is at a point, what the body leaves in the output block (one store, covering the block,
  of the product of the two loaded blocks), and that the body, run on the staging buffers, does exactly that.
-/
import proofs.«139981_j4999341932774_2_alg».proof.Proof.Gen.Kernel.Launch
import proofs.«139981_j4999341932774_2_alg».proof.Proof.Gen.Kernel.Skeleton
import proofs.«139981_j4999341932774_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512 t … of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight panel's staging buffer holds the whole panel at every point (it is fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three rectangles the body touches: each is its buffer whole. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- What the body leaves in the output block, from the two input blocks: its one store. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store covers the block. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The body on whole staging buffers, the inputs' at read contents `x0`, `x1` and the output's at anything, runs to
    the continuation with the inputs as they were and the output at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- The call's proof data on core `c`: the arrays as the call finds them; after the body at point `t` each input's
    buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.BRegion1.lean ====
/-
  The attention call (the second of the two kernel calls): a 4 x 8 grid; point (b, j) takes the 256 query rows
  256 j … 256 j + 255 of batch b, the whole key and value panels of batch b (2048 x 1024 each), the whole output
  projection and the matching 256 x 1024 block of the residual input, and stores one 256 x 1024 block of the result.
  Everything here is stated at a PARAMETER `V`, the buffer contents the call is entered from: what each window's block
  is at a point, what the body leaves in the output block (one store, covering the block, of the body's arithmetic over
  the five loaded blocks), and that the body, run on the staging buffers, does exactly that.
-/
import proofs.«139981_j4999341932774_2_alg».proof.Proof.Gen.Kernel.Launch
import proofs.«139981_j4999341932774_2_alg».proof.Proof.Gen.Kernel.Skeleton
import proofs.«139981_j4999341932774_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key panel's staging buffer holds batch b's panel at every point (fetched when b changes; otherwise its block has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value panel's staging buffer holds batch b's panel at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The output projection's staging buffer holds the whole matrix at every point (fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The residual block's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each is its buffer whole. -/
abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0

/-- The body's arithmetic as one function of the five loaded blocks (query rows, keys, values, output projection,
    residual): the stored value. -/
def body1 (x0 : Vec F S1x256x1024 .bf16) (x1 x2 : Vec F S1x2048x1024 .bf16) (x3 : Vec F S1024x1024 .bf16) (x4 : Vec F S1x256x1024 .f32) :
    Vec F S1x256x1024 .f32 :=
  k1_pay1 (k1_pay2 x0 x1 x2 x3 x4) (k1_pay3 x0 x1 x2 x3 x4) (k1_pay4 x0 x1 x2 x3 x4)

/-- What the body leaves in the output block, from the five input blocks: its one store. -/
def out1_5 (x0 : Vec F S1x256x1024 .bf16) (x1 x2 : Vec F S1x2048x1024 .bf16) (x3 : Vec F S1024x1024 .bf16) (x4 : Vec F S1x256x1024 .f32) :
    Vec F S1x256x1024 .f32 :=
  View.canon [⟨r1_0, body1 (View.ld x0 r1_0) (View.ld x1 r1_1) (View.ld x2 r1_1) (View.ld x3 r1_3) (View.ld x4 r1_0)⟩]

/-- The one store covers the block. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

set_option maxHeartbeats 1000000 in
/-- The body on whole staging buffers, the inputs' at read contents `x0 … x4` and the output's at anything, runs to
    the continuation with the inputs as they were and the output at `out1_5 x0 x1 x2 x3 x4`. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x256x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x256x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The call's proof data on core `c`: the arrays as the call finds them; after the body at point `t` each input's
    buffer at its block and the output's at `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.BRun.lean ====
/-
  The whole program as four items in order — the host operations before the projection call, the projection call, the
  host operations between the two calls (three column slices of the projection's output and their views as
  4 x 2048 x 1024), the attention call — and the buffer contents at each boundary as a fold from the launch memory:
  a stretch of host operations applies them; a kernel call leaves its output array at what its write-backs leave and
  every other buffer as it found it. Every argument array walks back through the fold to its launch contents (no host
  operation writes one; no call's output window is one). The run: every weakly fair execution terminates, and the final
  memory holds the result array at the last boundary's contents and every argument as launched.
-/
import proofs.«139981_j4999341932774_2_alg».proof.Proof.BRegion0
import proofs.«139981_j4999341932774_2_alg».proof.Proof.BRegion1
import proofs.«139981_j4999341932774_2_alg».proof.Proof.Gen.Kernel.Regions

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the projection call's exit: its arrays at what the call leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch of host operations (the attention call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention call's exit: its arrays at what the call leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer no operation of the first stretch writes is as at launch; of the second stretch, as the projection call left it. -/
theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 4).trans (((dat1 (U3 m ρ) c).arrAt_in 4 rfl _).trans (A_eq1 (U3 m ρ) c 4))
    _ = W2 m ρ c (Proc.devRef .tc main_arg0) := W3_keeps m ρ c main_arg0 (by decide)
    _ = W1 m ρ c (Proc.devRef .tc main_arg0) := W2_of_ne m ρ c main_arg0 (by decide)
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_keeps m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl

/-! ## The proof data family and the thread state -/

/-- No call has a prefetched table. -/
abbrev noTables : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) noTables p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as items -/

set_option backward.isDefEq.respectTransparency.types false in
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev items : List (Pipeline.Seg (pcfgs (F := F)) noTables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (items m ρ) := (main_chain c).trans (by chain_rfl)

set_option backward.isDefEq.respectTransparency.types false in
/-- From any memory with zero counters every weakly fair execution terminates, nothing faulting, and the final memory
    holds the result array at the last boundary's contents and every argument array as launched. -/
theorem run_main : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The result array's last contents are what the attention call's write-backs leave. -/
theorem W4_result (c : Dev nD) : W4 m ρ c (Proc.devRef .tc main_v15) = (dat1 (U3 m ρ) c).arrAt 5 cfg1.N :=
  W4_arr m ρ c 5

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Regs

end
-- ==== Proof.IRegion0.lean ====
/-
  The projection call (the first of the two kernel calls): one grid axis of 16 points; point t multiplies rows
  512 t … 512 t + 511 of the flattened activations (8192 x 1024) by the whole 1024 x 3072 weight panel and stores
  the 512 x 3072 product. Everything here is stated at a PARAMETER `V`, the buffer contents the call is entered from:
  what each window's block is at a point, what the body leaves in the output block (one store, covering the block,
  of the product of the two loaded blocks), and that the body, run on the staging buffers, does exactly that.
-/
import proofs.«139981_j4999341932774_2_alg».proof.Proof.Gen.KernelIdeal.Launch
import proofs.«139981_j4999341932774_2_alg».proof.Proof.Gen.KernelIdeal.Skeleton
import proofs.«139981_j4999341932774_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512 t … of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight panel's staging buffer holds the whole panel at every point (it is fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three rectangles the body touches: each is its buffer whole. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- What the body leaves in the output block, from the two input blocks: its one store. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store covers the block. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The body on whole staging buffers, the inputs' at read contents `x0`, `x1` and the output's at anything, runs to
    the continuation with the inputs as they were and the output at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- The call's proof data on core `c`: the arrays as the call finds them; after the body at point `t` each input's
    buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.IRegion1.lean ====
/-
  The attention call (the second of the two kernel calls): a 4 x 8 grid; point (b, j) takes the 256 query rows
  256 j … 256 j + 255 of batch b, the whole key and value panels of batch b (2048 x 1024 each), the whole output
  projection and the matching 256 x 1024 block of the residual input, and stores one 256 x 1024 block of the result.
  Everything here is stated at a PARAMETER `V`, the buffer contents the call is entered from: what each window's block
  is at a point, what the body leaves in the output block (one store, covering the block, of the body's arithmetic over
  the five loaded blocks), and that the body, run on the staging buffers, does exactly that.
-/
import proofs.«139981_j4999341932774_2_alg».proof.Proof.Gen.KernelIdeal.Launch
import proofs.«139981_j4999341932774_2_alg».proof.Proof.Gen.KernelIdeal.Skeleton
import proofs.«139981_j4999341932774_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key panel's staging buffer holds batch b's panel at every point (fetched when b changes; otherwise its block has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value panel's staging buffer holds batch b's panel at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The output projection's staging buffer holds the whole matrix at every point (fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The residual block's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each is its buffer whole. -/
abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0

/-- The body's arithmetic as one function of the five loaded blocks (query rows, keys, values, output projection,
    residual): the stored value. -/
def body1 (x0 : Vec F S1x256x1024 .bf16) (x1 x2 : Vec F S1x2048x1024 .bf16) (x3 : Vec F S1024x1024 .bf16) (x4 : Vec F S1x256x1024 .f32) :
    Vec F S1x256x1024 .f32 :=
  k1_pay1 (k1_pay2 x0 x1 x2 x3 x4) (k1_pay3 x0 x1 x2 x3 x4) (k1_pay4 x0 x1 x2 x3 x4)

/-- What the body leaves in the output block, from the five input blocks: its one store. -/
def out1_5 (x0 : Vec F S1x256x1024 .bf16) (x1 x2 : Vec F S1x2048x1024 .bf16) (x3 : Vec F S1024x1024 .bf16) (x4 : Vec F S1x256x1024 .f32) :
    Vec F S1x256x1024 .f32 :=
  View.canon [⟨r1_0, body1 (View.ld x0 r1_0) (View.ld x1 r1_1) (View.ld x2 r1_1) (View.ld x3 r1_3) (View.ld x4 r1_0)⟩]

/-- The one store covers the block. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

set_option maxHeartbeats 1000000 in
/-- The body on whole staging buffers, the inputs' at read contents `x0 … x4` and the output's at anything, runs to
    the continuation with the inputs as they were and the output at `out1_5 x0 x1 x2 x3 x4`. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x256x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x256x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The call's proof data on core `c`: the arrays as the call finds them; after the body at point `t` each input's
    buffer at its block and the output's at `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.IRun.lean ====
/-
  The whole program as four items in order — the host operations before the projection call, the projection call, the
  host operations between the two calls (three column slices of the projection's output and their views as
  4 x 2048 x 1024), the attention call — and the buffer contents at each boundary as a fold from the launch memory:
  a stretch of host operations applies them; a kernel call leaves its output array at what its write-backs leave and
  every other buffer as it found it. Every argument array walks back through the fold to its launch contents (no host
  operation writes one; no call's output window is one). The run: every weakly fair execution terminates, and the final
  memory holds the result array at the last boundary's contents and every argument as launched.
-/
import proofs.«139981_j4999341932774_2_alg».proof.Proof.IRegion0
import proofs.«139981_j4999341932774_2_alg».proof.Proof.IRegion1
import proofs.«139981_j4999341932774_2_alg».proof.Proof.Gen.KernelIdeal.Regions

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the projection call's exit: its arrays at what the call leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch of host operations (the attention call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention call's exit: its arrays at what the call leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer no operation of the first stretch writes is as at launch; of the second stretch, as the projection call left it. -/
theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 4).trans (((dat1 (U3 m ρ) c).arrAt_in 4 rfl _).trans (A_eq1 (U3 m ρ) c 4))
    _ = W2 m ρ c (Proc.devRef .tc main_arg0) := W3_keeps m ρ c main_arg0 (by decide)
    _ = W1 m ρ c (Proc.devRef .tc main_arg0) := W2_of_ne m ρ c main_arg0 (by decide)
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_keeps m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl

/-! ## The proof data family and the thread state -/

/-- No call has a prefetched table. -/
abbrev noTables : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) noTables p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as items -/

set_option backward.isDefEq.respectTransparency.types false in
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev items : List (Pipeline.Seg (pcfgs (F := F)) noTables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (items m ρ) := (main_chain c).trans (by chain_rfl)

set_option backward.isDefEq.respectTransparency.types false in
/-- From any memory with zero counters every weakly fair execution terminates, nothing faulting, and the final memory
    holds the result array at the last boundary's contents and every argument array as launched. -/
theorem run_main : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The result array's last contents are what the attention call's write-backs leave. -/
theorem W4_result (c : Dev nD) : W4 m ρ c (Proc.devRef .tc main_v15) = (dat1 (U3 m ρ) c).arrAt 5 cfg1.N :=
  W4_arr m ρ c 5

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Regs

end
-- ==== Proof.Spec.lean ====
/-
  Single-head attention with an output projection, a residual and a layer normalisation, as ONE function of the five
  argument arrays on the extended reals.

  For batch b and query position s, with x the activations (4 x 2048 x 1024) and Wq, Wk, Wv, Wo square weight matrices
  applied as y = x W^T:
    q = x Wq^T, k = x Wk^T, v = x Wv^T (rows of 1024 entries);
    the score of key j is (q . k_j) scaled by 1/32 (the literal 0.03125 = 1/sqrt 1024);
    the weights are exp (score - max score), divided by their sum (a softmax over the 2048 keys);
    the attended row is the weighted sum of the value rows; it is multiplied by Wo^T and the residual row of x is added;
    the result is centred by its mean over the 1024 features and scaled by 1/sqrt (variance + 1e-5).
  `rowOut` is that computation for one query row given its q-row, the batch's K and V panels, Wo and the residual row;
  `G` instantiates it at the projections of x. Both programs are shown to compute `G`.
-/
import Idealize.ShloMosaic.PureOps.Ideal
import Idealize.ShloMosaic.Lib.ValueIdx

noncomputable section

open scoped BigOperators

namespace Cert.Attn

open Idealize.ShloMosaic Idealize.ShloMosaic.ValueIdx

/-- The literals, as the extended reals their words denote: 1/32, -inf, 1024, and the f32 nearest 1e-5. -/
abbrev cScale : EReal := Ideal.ofBits .f32 0x3D000000#32
abbrev cNegInf : EReal := Ideal.ofBits .f32 0xFF800000#32
abbrev cWidth : EReal := Ideal.ofBits .f32 0x44800000#32
abbrev cEps : EReal := Ideal.ofBits .f32 0x3727C5AC#32

section Row
variable (q : Fin 1024 → EReal) (k v : Fin 2048 → Fin 1024 → EReal) (wo : Fin 1024 → Fin 1024 → EReal) (xr : Fin 1024 → EReal)

/-- The scaled score of key j. -/
def score (j : Fin 2048) : EReal := (∑ d : Fin 1024, q d * k j d) * cScale
/-- The largest score (a fold of max from -inf). -/
def top : EReal := (Finset.univ : Finset (Fin 2048)).fold max cNegInf (fun j => score q k j)
/-- The unnormalised weight of key j. -/
def wgt (j : Fin 2048) : EReal := Ideal.exp (score q k j - top q k)
/-- The normaliser. -/
def den : EReal := ∑ j : Fin 2048, wgt q k j
/-- The softmax weight of key j. -/
def prob (j : Fin 2048) : EReal := Ideal.div (wgt q k j) (den q k)
/-- The attended row. -/
def att (d : Fin 1024) : EReal := ∑ j : Fin 2048, prob q k j * v j d
/-- The output projection plus the residual. -/
def hid (e : Fin 1024) : EReal := (∑ d : Fin 1024, att q k v d * wo e d) + xr e
/-- Its mean over the features. -/
def mean : EReal := Ideal.div (∑ e : Fin 1024, hid q k v wo xr e) cWidth
/-- The centred row. -/
def dev (e : Fin 1024) : EReal := hid q k v wo xr e - mean q k v wo xr
/-- Its variance. -/
def var : EReal := Ideal.div (∑ e : Fin 1024, dev q k v wo xr e * dev q k v wo xr e) cWidth
/-- The normalised row. -/
def rowOut (e : Fin 1024) : EReal := dev q k v wo xr e * Ideal.rsqrt (var q k v wo xr + cEps)
end Row

/-- The argument arrays' shapes. -/
abbrev SX : Shape := ⟨3, ![4, 2048, 1024]⟩
abbrev SW : Shape := ⟨2, ![1024, 1024]⟩

/-- A bias-free linear layer: row (b, s) of x against row e of w. -/
def proj (x : SX.Idx → EReal) (w : SW.Idx → EReal) (b : Fin 4) (s : Fin 2048) (e : Fin 1024) : EReal :=
  ∑ d : Fin 1024, x (ix3 b s d) * w (ix2 e d)

/-- The whole result at (b, s, e). -/
def outAt (x : SX.Idx → EReal) (wq wk wv wo : SW.Idx → EReal) (b : Fin 4) (s : Fin 2048) (e : Fin 1024) : EReal :=
  rowOut (fun d => proj x wq b s d) (fun j d => proj x wk b j d) (fun j d => proj x wv b j d)
    (fun e' d => wo (ix2 e' d)) (fun e' => x (ix3 b s e')) e

/-- The result array as one function of the five argument arrays. -/
def G (x : SX.Idx → EReal) (wq wk wv wo : SW.Idx → EReal) : SX.Idx → EReal :=
  fun i => outAt x wq wk wv wo (i 0) (i 1) (i 2)

theorem G_ix3 (x : SX.Idx → EReal) (wq wk wv wo : SW.Idx → EReal) (b : Fin 4) (s : Fin 2048) (e : Fin 1024) :
    G x wq wk wv wo (ix3 b s e) = outAt x wq wk wv wo b s e := rfl

end Cert.Attn

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«139981_j4999341932774_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibUnitBatchDot.lean ====
/-
  One matrix product of a batch, as a kernel body computes it on a block with a leading unit axis.

  A `[1, R, K]` array viewed as `[R, K]` reads `(0, p, k)` at `(p, k)`; an `[R, C]` array stored as `[1, R, C]` reads
  `(p, q)` at `(u, p, q)`. So the plain product, into a zero accumulator, of a `[1, R, K]` block and a `[1, K, C]` block
  viewed as matrices (each first narrowed to another float format, which on the extended reals changes nothing), stored
  back as a `[1, R, C]` block, is at `(u, p, q)` the sum over `k` of `lhs (0, p, k) * rhs (0, k, q)`.
-/
import Idealize.ShloMosaic.Lib.Pipeline.Value
import Idealize.ShloMosaic.Lib.ValueIdx
import proofs.«139981_j4999341932774_2_alg».proof.Proof.LibPlainDot

noncomputable section

open scoped BigOperators

namespace Cert.LibUnitBatchDot

open Idealize.ShloMosaic Idealize.ShloMosaic.ValueIdx Cert.LibPlainDot

/-- A `[1, R, K]` array viewed as `[R, K]`, at `(p, k)`: the array at `(0, p, k)`. -/
theorem dropUnit_ix2 {α : Type} {R K : Nat} (v : (⟨3, ![1, R, K]⟩ : Shape).Idx → α)
    (h : (⟨3, ![1, R, K]⟩ : Shape).ShapeCasts ⟨2, ![R, K]⟩) (p : Fin R) (k : Fin K) :
    shapeCast ⟨2, ![R, K]⟩ v h (ix2 p k) = v (ix3 (0 : Fin 1) p k) := by
  refine (shapeCast_dropUnit_apply ![R, K] v h (ix2 p k)).trans (congrArg v ?_)
  funext a
  match a with
  | ⟨0, _⟩ => rfl
  | ⟨1, _⟩ => rfl
  | ⟨2, _⟩ => rfl

/-- An `[R, C]` array stored as `[1, R, C]`, at `(u, p, q)`: the array at `(p, q)`. -/
theorem addUnit_ix3 {α : Type} {R C : Nat} (w : (⟨2, ![R, C]⟩ : Shape).Idx → α)
    (h : (⟨2, ![R, C]⟩ : Shape).ShapeCasts ⟨3, ![1, R, C]⟩) (u : Fin 1) (p : Fin R) (q : Fin C) :
    shapeCast ⟨3, ![1, R, C]⟩ w h (ix3 u p q) = w (ix2 p q) := by
  refine (shapeCast_addUnit_apply ![R, C] w h (ix3 u p q)).trans (congrArg w ?_)
  funext a
  match a with
  | ⟨0, _⟩ => rfl
  | ⟨1, _⟩ => rfl

/-- THE PRODUCT OF ONE BATCH ENTRY, block to block: at `(u, p, q)` the sum over `k` of `lhs (0, p, k) * rhs (0, k, q)`. -/
theorem unitBatch_matmul_apply {R K C : Nat} {ψ₁ ψ₂ : FTy}
    (wf : DotDims.WF ⟨2, ![R, K]⟩ ⟨2, ![K, C]⟩ ⟨2, ![R, C]⟩ [1] [0] [0] [1] [] [])
    (hl : (⟨3, ![1, R, K]⟩ : Shape).ShapeCasts ⟨2, ![R, K]⟩) (hr : (⟨3, ![1, K, C]⟩ : Shape).ShapeCasts ⟨2, ![K, C]⟩)
    (ho : (⟨2, ![R, C]⟩ : Shape).ShapeCasts ⟨3, ![1, R, C]⟩) (h₁ : ψ₁.bits < FTy.f32.bits) (h₂ : ψ₂.bits < FTy.f32.bits)
    (prec : Option ContractPrecision)
    (lhs : FVec Ideal ⟨3, ![1, R, K]⟩ .f32) (rhs : FVec Ideal ⟨3, ![1, K, C]⟩ .f32) (u : Fin 1) (p : Fin R) (q : Fin C) :
    shapeCast ⟨3, ![1, R, C]⟩
        (FloatOps.matmul (plainDot R K C wf) prec (truncf ψ₁ (shapeCast ⟨2, ![R, K]⟩ lhs hl) h₁)
          (truncf ψ₂ (shapeCast ⟨2, ![K, C]⟩ rhs hr) h₂) (constant ⟨2, ![R, C]⟩ .f32 0x00000000#32)) ho (ix3 u p q)
      = ∑ k : Fin K, lhs (ix3 (0 : Fin 1) p k) * rhs (ix3 (0 : Fin 1) k q) := by
  refine (addUnit_ix3 _ ho u p q).trans ?_
  refine (matmul_zero_apply wf prec _ _ p q).trans ?_
  refine Finset.sum_congr rfl fun k _ => ?_
  rw [truncf_apply, truncf_apply, dropUnit_ix2, dropUnit_ix2]

end Cert.LibUnitBatchDot

end
-- ==== Proof.KBody.lean ====
/-
  The attention call's body, read at an index on the extended reals.

  The body's arithmetic over its five loaded blocks — 256 query rows q, the batch's key and value panels k, v
  (2048 rows each), the transposed output projection and the 256 residual rows — is written here as a chain of named
  stages (scores, row maximum, weights, normaliser, probabilities, attended rows, projected rows plus residual, mean,
  centred rows, sum of squares, the normalised block); the printed payloads are these stages by unfolding. Each stage
  read at an index is the corresponding stage of the one-row specification: a matrix product into a zero accumulator
  is the plain sum of products, a lane reduction along the second axis is the sum (or the fold of max) over the row, a
  column kept as 256 x 1 and stretched along the row reads its row's entry, and a change of float format is the identity.
-/
import proofs.«139981_j4999341932774_2_alg».proof.Proof.Gen.KernelIdeal.Skeleton
import proofs.«139981_j4999341932774_2_alg».proof.Proof.Spec
import proofs.«139981_j4999341932774_2_alg».proof.Proof.LibPlainDot
import proofs.«139981_j4999341932774_2_alg».proof.Proof.LibDotT
import proofs.«139981_j4999341932774_2_alg».proof.Proof.LibRowReduce
import proofs.«139981_j4999341932774_2_alg».proof.Proof.LibUnitBatchDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.Attn
open Idealize.ShloMosaic Idealize.ShloMosaic.ValueIdx

variable (x0 : Vec Ideal S1x256x1024 .bf16) (x1 x2 : Vec Ideal S1x2048x1024 .bf16) (x3 : Vec Ideal S1024x1024 .bf16)
  (x4 : Vec Ideal S1x256x1024 .f32)

/-! ## The stages -/

/-- The scaled scores of the 256 query rows against the 2048 keys. -/
def sScore : FVec Ideal S256x2048 .f32 :=
  mulf (matmul dot_S256x1024_S2048x1024_S256x2048_1_1_0_0_n_n none
      (shapeCast S256x1024 x0 shapeCasts_S1x256x1024_S256x1024 : FVec Ideal S256x1024 .bf16)
      (shapeCast S2048x1024 x1 shapeCasts_S1x2048x1024_S2048x1024 : FVec Ideal S2048x1024 .bf16)
      (constant S256x2048 .f32 0x00000000#32))
    (broadcast S256x2048 (Scalar.ofBits .f32 0x3D000000#32))
/-- Each row's largest score. -/
def sTop : FVec Ideal S256 .f32 :=
  multiReduction .maximumf [1] S256 (sScore x0 x1) 0xFF800000#32 reduces_S256x2048_S256 (.inl rfl) rfl
/-- The unnormalised weights. -/
def sWgt : FVec Ideal S256x2048 .f32 :=
  exp (subf (sScore x0 x1) (broadcastTo S256x2048 (shapeCast S256x1 (sTop x0 x1) shapeCasts_S256_S256x1) broadcasts_S256x1_S256x2048))
/-- Each row's normaliser. -/
def sDen : FVec Ideal S256 .f32 :=
  multiReduction .add [1] S256 (sWgt x0 x1) 0x00000000#32 reduces_S256x2048_S256 (.inl rfl) rfl
/-- The softmax weights. -/
def sProb : FVec Ideal S256x2048 .f32 :=
  divf (sWgt x0 x1) (broadcastTo S256x2048 (shapeCast S256x1 (sDen x0 x1) shapeCasts_S256_S256x1) broadcasts_S256x1_S256x2048)
/-- The attended rows. -/
def sAtt : FVec Ideal S256x1024 .f32 :=
  matmul dot_S256x2048_S2048x1024_S256x1024_1_0_0_1_n_n none (truncf .bf16 (sProb x0 x1) bitsLt_bf16_f32)
    (shapeCast S2048x1024 x2 shapeCasts_S1x2048x1024_S2048x1024 : FVec Ideal S2048x1024 .bf16) (constant S256x1024 .f32 0x00000000#32)
/-- The projected rows plus the residual. -/
def sHid : FVec Ideal S256x1024 .f32 :=
  addf (matmul dot_S256x1024_S1024x1024_S256x1024_1_0_0_1_n_n none (truncf .bf16 (sAtt x0 x1 x2) bitsLt_bf16_f32)
      (shapeCast S1024x1024 x3 shapeCasts_S1024x1024_S1024x1024 : FVec Ideal S1024x1024 .bf16) (constant S256x1024 .f32 0x00000000#32))
    (shapeCast S256x1024 x4 shapeCasts_S1x256x1024_S256x1024 : FVec Ideal S256x1024 .f32)
/-- Each row's mean, kept as a column. -/
def sMean : FVec Ideal S256x1 .f32 :=
  divf (shapeCast S256x1 (multiReduction .add [1] S256 (sHid x0 x1 x2 x3 x4) 0x00000000#32 reduces_S256x1024_S256 (.inl rfl) rfl) shapeCasts_S256_S256x1)
    (broadcast S256x1 (Scalar.ofBits .f32 0x44800000#32))
/-- The centred rows. -/
def sDev : FVec Ideal S256x1024 .f32 :=
  subf (sHid x0 x1 x2 x3 x4) (broadcastTo S256x1024 (sMean x0 x1 x2 x3 x4) broadcasts_S256x1_S256x1024)
/-- Each row's sum of squared deviations. -/
def sSq : FVec Ideal S256 .f32 :=
  multiReduction .add [1] S256 (mulf (sDev x0 x1 x2 x3 x4) (sDev x0 x1 x2 x3 x4)) 0x00000000#32 reduces_S256x1024_S256 (.inl rfl) rfl
/-- The reciprocal standard deviation, kept as a column. -/
def sInv : FVec Ideal S256x1 .f32 :=
  rsqrt (addf (divf (shapeCast S256x1 (sSq x0 x1 x2 x3 x4) shapeCasts_S256_S256x1) (broadcast S256x1 (Scalar.ofBits .f32 0x44800000#32)))
    (broadcast S256x1 (Scalar.ofBits .f32 0x3727C5AC#32)))
/-- The normalised block, stored with its leading unit axis. -/
def sOut : FVec Ideal S1x256x1024 .f32 :=
  shapeCast S1x256x1024 (mulf (sDev x0 x1 x2 x3 x4) (broadcastTo S256x1024 (sInv x0 x1 x2 x3 x4) broadcasts_S256x1_S256x1024))
    shapeCasts_S256x1024_S1x256x1024

/-- The printed payloads are the stages. -/
theorem pay2_eq : k1_pay2 x0 x1 x2 x3 x4 = sHid x0 x1 x2 x3 x4 := rfl
theorem pay3_eq : k1_pay3 x0 x1 x2 x3 x4 = sMean x0 x1 x2 x3 x4 := rfl
theorem pay4_eq : k1_pay4 x0 x1 x2 x3 x4 = sSq x0 x1 x2 x3 x4 := rfl
theorem pay1_eq : k1_pay1 (k1_pay2 x0 x1 x2 x3 x4) (k1_pay3 x0 x1 x2 x3 x4) (k1_pay4 x0 x1 x2 x3 x4) = sOut x0 x1 x2 x3 x4 := rfl

/-! ## The stages at an index -/

/-- The one-row specification's inputs, read off the blocks: row r's q, the key and value panels, the output
    projection (the block holds its transpose) and row r's residual. -/
abbrev qRow (r : Fin 256) : Fin 1024 → EReal := fun d => x0 (ix3 (0 : Fin 1) r d)
abbrev kMat : Fin 2048 → Fin 1024 → EReal := fun j d => x1 (ix3 (0 : Fin 1) j d)
abbrev vMat : Fin 2048 → Fin 1024 → EReal := fun j d => x2 (ix3 (0 : Fin 1) j d)
abbrev woMat : Fin 1024 → Fin 1024 → EReal := fun e d => x3 (ix2 d e)
abbrev xRow (r : Fin 256) : Fin 1024 → EReal := fun e => x4 (ix3 (0 : Fin 1) r e)

theorem sScore_apply (r : Fin 256) (j : Fin 2048) : sScore x0 x1 (ix2 r j) = score (qRow x0 r) (kMat x1) j := by
  unfold sScore score
  refine congrArg₂ (fun a b : EReal => a * b) ?_ rfl
  refine (Cert.LibDotT.matmulT_zero_apply (R := 256) (K := 1024) (C := 2048) dot_S256x1024_S2048x1024_S256x2048_1_1_0_0_n_n_wf none _ _ r j).trans ?_
  refine Finset.sum_congr rfl fun d _ => ?_
  rw [Cert.LibUnitBatchDot.dropUnit_ix2, Cert.LibUnitBatchDot.dropUnit_ix2]

theorem sTop_apply (r : Fin 256) : sTop x0 x1 (ix1 r) = top (qRow x0 r) (kMat x1) := by
  unfold sTop top
  refine (Cert.LibRowReduce.rowMax_apply (a := 256) (b := 2048) (sScore x0 x1) 0xFF800000#32 reduces_S256x2048_S256 (.inl rfl) rfl r).trans ?_
  exact congrArg (fun f => (Finset.univ : Finset (Fin 2048)).fold max cNegInf f) (funext fun j => sScore_apply x0 x1 r j)

theorem sWgt_apply (r : Fin 256) (j : Fin 2048) : sWgt x0 x1 (ix2 r j) = wgt (qRow x0 r) (kMat x1) j := by
  unfold sWgt wgt
  show Ideal.exp (sScore x0 x1 (ix2 r j) - broadcastTo S256x2048 (shapeCast S256x1 (sTop x0 x1) shapeCasts_S256_S256x1) broadcasts_S256x1_S256x2048 (ix2 r j)) = _
  rw [Cert.LibRowReduce.column_repeat_apply (a := 256) (b' := 2048), sScore_apply, sTop_apply]

theorem sDen_apply (r : Fin 256) : sDen x0 x1 (ix1 r) = den (qRow x0 r) (kMat x1) := by
  unfold sDen den
  refine (Cert.LibRowReduce.rowSum_apply (a := 256) (b := 2048) (sWgt x0 x1) 0x00000000#32 reduces_S256x2048_S256 (.inl rfl) rfl r).trans ?_
  exact Finset.sum_congr rfl fun j _ => sWgt_apply x0 x1 r j

theorem sProb_apply (r : Fin 256) (j : Fin 2048) : sProb x0 x1 (ix2 r j) = prob (qRow x0 r) (kMat x1) j := by
  unfold sProb prob
  show Ideal.div (sWgt x0 x1 (ix2 r j)) (broadcastTo S256x2048 (shapeCast S256x1 (sDen x0 x1) shapeCasts_S256_S256x1) broadcasts_S256x1_S256x2048 (ix2 r j)) = _
  rw [Cert.LibRowReduce.column_repeat_apply (a := 256) (b' := 2048), sWgt_apply, sDen_apply]

theorem sAtt_apply (r : Fin 256) (d : Fin 1024) : sAtt x0 x1 x2 (ix2 r d) = att (qRow x0 r) (kMat x1) (vMat x2) d := by
  unfold sAtt att
  refine (Cert.LibPlainDot.matmul_zero_apply (R := 256) (K := 2048) (C := 1024) dot_S256x2048_S2048x1024_S256x1024_1_0_0_1_n_n_wf none _ _ r d).trans ?_
  refine Finset.sum_congr rfl fun j _ => ?_
  rw [truncf_apply, sProb_apply, Cert.LibUnitBatchDot.dropUnit_ix2]

theorem sHid_apply (r : Fin 256) (e : Fin 1024) :
    sHid x0 x1 x2 x3 x4 (ix2 r e) = hid (qRow x0 r) (kMat x1) (vMat x2) (woMat x3) (xRow x4 r) e := by
  unfold sHid hid
  show matmul dot_S256x1024_S1024x1024_S256x1024_1_0_0_1_n_n none (truncf .bf16 (sAtt x0 x1 x2) bitsLt_bf16_f32)
      (shapeCast S1024x1024 x3 shapeCasts_S1024x1024_S1024x1024 : FVec Ideal S1024x1024 .bf16) (constant S256x1024 .f32 0x00000000#32) (ix2 r e)
    + (shapeCast S256x1024 x4 shapeCasts_S1x256x1024_S256x1024 : FVec Ideal S256x1024 .f32) (ix2 r e) = _
  rw [Cert.LibUnitBatchDot.dropUnit_ix2]
  refine congrArg₂ (fun a b : EReal => a + b) ?_ rfl
  refine (Cert.LibPlainDot.matmul_zero_apply (R := 256) (K := 1024) (C := 1024) dot_S256x1024_S1024x1024_S256x1024_1_0_0_1_n_n_wf none _ _ r e).trans ?_
  refine Finset.sum_congr rfl fun d _ => ?_
  rw [truncf_apply, sAtt_apply, shapeCast_self]

theorem sMean_apply (r : Fin 256) (u : Fin 1) :
    sMean x0 x1 x2 x3 x4 (ix2 r u) = mean (qRow x0 r) (kMat x1) (vMat x2) (woMat x3) (xRow x4 r) := by
  unfold sMean mean
  show Ideal.div (shapeCast S256x1 (multiReduction .add [1] S256 (sHid x0 x1 x2 x3 x4) 0x00000000#32 reduces_S256x1024_S256 (.inl rfl) rfl) shapeCasts_S256_S256x1 (ix2 r u)) cWidth = _
  rw [Cert.LibColumn.shapeCast_a_a1_apply (a := 256)]
  refine congrArg (fun z => Ideal.div z cWidth) ?_
  refine (Cert.LibRowReduce.rowSum_apply (a := 256) (b := 1024) (sHid x0 x1 x2 x3 x4) 0x00000000#32 reduces_S256x1024_S256 (.inl rfl) rfl r).trans ?_
  exact Finset.sum_congr rfl fun e _ => sHid_apply x0 x1 x2 x3 x4 r e

theorem sDev_apply (r : Fin 256) (e : Fin 1024) :
    sDev x0 x1 x2 x3 x4 (ix2 r e) = dev (qRow x0 r) (kMat x1) (vMat x2) (woMat x3) (xRow x4 r) e := by
  unfold sDev dev
  show sHid x0 x1 x2 x3 x4 (ix2 r e) - broadcastTo S256x1024 (sMean x0 x1 x2 x3 x4) broadcasts_S256x1_S256x1024 (ix2 r e) = _
  rw [Cert.LibColumn.broadcastTo_a1_ab_apply (a := 256) (b := 1024), sHid_apply, sMean_apply]

theorem sSq_apply (r : Fin 256) :
    sSq x0 x1 x2 x3 x4 (ix1 r) = ∑ e : Fin 1024, dev (qRow x0 r) (kMat x1) (vMat x2) (woMat x3) (xRow x4 r) e
        * dev (qRow x0 r) (kMat x1) (vMat x2) (woMat x3) (xRow x4 r) e := by
  unfold sSq
  refine (Cert.LibRowReduce.rowSum_apply (a := 256) (b := 1024) _ 0x00000000#32 reduces_S256x1024_S256 (.inl rfl) rfl r).trans ?_
  refine Finset.sum_congr rfl fun e _ => ?_
  rw [mulf_apply, sDev_apply]

theorem sInv_apply (r : Fin 256) (u : Fin 1) :
    sInv x0 x1 x2 x3 x4 (ix2 r u) = Ideal.rsqrt (var (qRow x0 r) (kMat x1) (vMat x2) (woMat x3) (xRow x4 r) + cEps) := by
  unfold sInv var
  show Ideal.rsqrt (Ideal.div (shapeCast S256x1 (sSq x0 x1 x2 x3 x4) shapeCasts_S256_S256x1 (ix2 r u)) cWidth + cEps) = _
  rw [Cert.LibColumn.shapeCast_a_a1_apply (a := 256), sSq_apply]

/-- THE BLOCK the body stores, at (u, r, e): the one-row specification of row r's inputs, at feature e. -/
theorem sOut_apply (u : Fin 1) (r : Fin 256) (e : Fin 1024) :
    sOut x0 x1 x2 x3 x4 (ix3 u r e) = rowOut (qRow x0 r) (kMat x1) (vMat x2) (woMat x3) (xRow x4 r) e := by
  unfold sOut rowOut
  rw [Cert.LibUnitBatchDot.addUnit_ix3, mulf_apply, Cert.LibColumn.broadcastTo_a1_ab_apply (a := 256) (b := 1024), sDev_apply, sInv_apply]

end Cert.KernelIdeal.Body

end
-- ==== Proof.KAttn.lean ====
/-
  What the attention call leaves in its output array, as one function of the five arrays it reads.

  Point (b, j) of the 4 x 8 grid writes back rows 256 j … 256 j + 255 of batch b: for each of those rows s and each
  feature e, the one-row specification of the row's query entries, batch b's key and value panels, the output
  projection (stored transposed) and the row's residual entries. Each input block is read where the output block's
  position says (same batch; same rows for the query and residual blocks; whole panels otherwise). The 32 blocks tile
  the 4 x 2048 x 1024 output, so the array ends holding that function at every index.
-/
import proofs.«139981_j4999341932774_2_alg».proof.Proof.IRegion1
import proofs.«139981_j4999341932774_2_alg».proof.Proof.KBody
import Idealize.ShloMosaic.Lib.ValueIdx
import Idealize.ShloMosaic.Lib.Pipeline.Value

set_option maxRecDepth 16384

noncomputable section

open scoped BigOperators

namespace Cert.KernelIdeal.Att

open Cert.KernelIdeal Cert.KernelIdeal.Gen Cert.KernelIdeal.Regs Cert.KernelIdeal.Body Cert.Attn
open Idealize.ShloMosaic Idealize.ShloMosaic.TcCoe Idealize.ShloMosaic.ValueIdx Idealize.SL.Sem
open Idealize.ShloMosaic.Pipeline (Dat)

/-- The output at (b, s, e), from the five arrays the call reads: queries, keys, values (4 x 2048 x 1024 each), the
    transposed output projection, and the residual input. -/
def attnAt (Q K Vv : FVec Ideal S4x2048x1024 .bf16) (Wt : FVec Ideal S1024x1024 .bf16) (X : FVec Ideal S4x2048x1024 .f32)
    (b : Fin 4) (s : Fin 2048) (e : Fin 1024) : EReal :=
  rowOut (fun d => Q (ix3 b s d)) (fun j d => K (ix3 b j d)) (fun j d => Vv (ix3 b j d)) (fun e' d => Wt (ix2 d e'))
    (fun e' => X (ix3 b s e')) e

/-- The output as an array. -/
def attn (Q K Vv : FVec Ideal S4x2048x1024 .bf16) (Wt : FVec Ideal S1024x1024 .bf16) (X : FVec Ideal S4x2048x1024 .f32) :
    FVec Ideal S4x2048x1024 .f32 :=
  fun i => attnAt Q K Vv Wt X (i 0) (i 1) (i 2)

/-- The body's stored block at an index given whole: the one-row specification of that row's inputs. -/
theorem body_at (x0 : Vec Ideal S1x256x1024 .bf16) (x1 x2 : Vec Ideal S1x2048x1024 .bf16) (x3 : Vec Ideal S1024x1024 .bf16)
    (x4 : Vec Ideal S1x256x1024 .f32) (y : S1x256x1024.Idx) :
    body1 x0 x1 x2 x3 x4 y = rowOut (qRow x0 (⟨(y 1).val, (y 1).isLt⟩ : Fin 256)) (kMat x1) (vMat x2) (woMat x3)
      (xRow x4 (⟨(y 1).val, (y 1).isLt⟩ : Fin 256)) (⟨(y 2).val, (y 2).isLt⟩ : Fin 1024) := by
  obtain ⟨u, r, e, rfl⟩ : ∃ (u : Fin 1) (r : Fin 256) (e : Fin 1024), y = ix3 u r e := ⟨y 0, y 1, y 2, eq_ix3 y⟩
  exact (congrFun (pay1_eq x0 x1 x2 x3 x4) _).trans (sOut_apply x0 x1 x2 x3 x4 u r e)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices, decided over the grid: the query and residual blocks move with the output's; the key and value
    panels follow the batch only; the output projection never moves; nothing moves along the features. -/
theorem idx_facts : ∀ t : Fin cfg1.N,
    (win1_0.index t (0 : Fin 3) = win1_5.index t (0 : Fin 3) ∧ win1_0.index t (1 : Fin 3) = win1_5.index t (1 : Fin 3) ∧ win1_0.index t (2 : Fin 3) = 0)
    ∧ (win1_1.index t (0 : Fin 3) = win1_5.index t (0 : Fin 3) ∧ win1_1.index t (1 : Fin 3) = 0 ∧ win1_1.index t (2 : Fin 3) = 0)
    ∧ (win1_2.index t (0 : Fin 3) = win1_5.index t (0 : Fin 3) ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 3) = win1_5.index t (0 : Fin 3) ∧ win1_4.index t (1 : Fin 3) = win1_5.index t (1 : Fin 3) ∧ win1_4.index t (2 : Fin 3) = 0)
    ∧ win1_5.index t (2 : Fin 3) = 0 :=
  (by decide +kernel : ∀ t : Fin grid1.N, _)

/-- Every block of the output is some point's. -/
theorem idx_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- WHAT POINT t WRITES BACK is block t of the attention function of the five arrays the call reads. -/
theorem flushed_eq (c : Dev nD) (t : Fin cfg1.N) :
    (dat1 V c).flushed 5 t = ((cfg1.win 5).blk t).view.read (Elt Ideal)
      (attn (V c main_v12) (V c main_v13) (V c main_v14) (V c main_v7) (V c main_arg0)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1x2048x1024) hz3, View.ld_unit_zero (S := S1024x1024) hz2]
  obtain ⟨⟨a0, a1, a2⟩, ⟨b0, b1, b2⟩, ⟨c0, c1, c2⟩, ⟨d0, d1⟩, ⟨f0, f1, f2⟩, g2⟩ := idx_facts t
  funext j
  show body1 (iblk1 V c 0 t) (iblk1 V c 1 t) (iblk1 V c 2 t) (iblk1 V c 3 t) (iblk1 V c 4 t) j
    = attn (V c main_v12) (V c main_v13) (V c main_v14) (V c main_v7) (V c main_arg0) (((cfg1.win 5).blk t).view.emb j)
  refine (body_at _ _ _ _ _ j).trans ?_
  unfold attn attnAt
  have hj0 : (j 0).val < 1 := (j 0).isLt
  refine congr (congr (congr (congr (congr (congrArg rowOut ?_) ?_) ?_) ?_) ?_) ?_
  · funext d
    show V c main_v12 (((cfg1.win 0).blk t).view.emb _) = V c main_v12 _
    refine congrArg (V c main_v12) ?_
    funext a; apply Fin.ext
    match a with
    | ⟨0, _⟩ => show win1_0.index t (0 : Fin 3) * 1 + 1 * 0 = win1_5.index t (0 : Fin 3) * 1 + 1 * (j 0).val; omega
    | ⟨1, _⟩ => show win1_0.index t (1 : Fin 3) * 256 + 1 * (j 1).val = win1_5.index t (1 : Fin 3) * 256 + 1 * (j 1).val; omega
    | ⟨2, _⟩ => show win1_0.index t (2 : Fin 3) * 1024 + 1 * d.val = d.val; omega
  · funext j' d
    show V c main_v13 (((cfg1.win 1).blk t).view.emb _) = V c main_v13 _
    refine congrArg (V c main_v13) ?_
    funext a; apply Fin.ext
    match a with
    | ⟨0, _⟩ => show win1_1.index t (0 : Fin 3) * 1 + 1 * 0 = win1_5.index t (0 : Fin 3) * 1 + 1 * (j 0).val; omega
    | ⟨1, _⟩ => show win1_1.index t (1 : Fin 3) * 2048 + 1 * j'.val = j'.val; omega
    | ⟨2, _⟩ => show win1_1.index t (2 : Fin 3) * 1024 + 1 * d.val = d.val; omega
  · funext j' d
    show V c main_v14 (((cfg1.win 2).blk t).view.emb _) = V c main_v14 _
    refine congrArg (V c main_v14) ?_
    funext a; apply Fin.ext
    match a with
    | ⟨0, _⟩ => show win1_2.index t (0 : Fin 3) * 1 + 1 * 0 = win1_5.index t (0 : Fin 3) * 1 + 1 * (j 0).val; omega
    | ⟨1, _⟩ => show win1_2.index t (1 : Fin 3) * 2048 + 1 * j'.val = j'.val; omega
    | ⟨2, _⟩ => show win1_2.index t (2 : Fin 3) * 1024 + 1 * d.val = d.val; omega
  · funext e' d
    show V c main_v7 (((cfg1.win 3).blk t).view.emb _) = V c main_v7 _
    refine congrArg (V c main_v7) ?_
    funext a; apply Fin.ext
    match a with
    | ⟨0, _⟩ => show win1_3.index t (0 : Fin 2) * 1024 + 1 * d.val = d.val; omega
    | ⟨1, _⟩ => show win1_3.index t (1 : Fin 2) * 1024 + 1 * e'.val = e'.val; omega
  · funext e'
    show V c main_arg0 (((cfg1.win 4).blk t).view.emb _) = V c main_arg0 _
    refine congrArg (V c main_arg0) ?_
    funext a; apply Fin.ext
    match a with
    | ⟨0, _⟩ => show win1_4.index t (0 : Fin 3) * 1 + 1 * 0 = win1_5.index t (0 : Fin 3) * 1 + 1 * (j 0).val; omega
    | ⟨1, _⟩ => show win1_4.index t (1 : Fin 3) * 256 + 1 * (j 1).val = win1_5.index t (1 : Fin 3) * 256 + 1 * (j 1).val; omega
    | ⟨2, _⟩ => show win1_4.index t (2 : Fin 3) * 1024 + 1 * e'.val = e'.val; omega
  · apply Fin.ext
    show (j 2).val = win1_5.index t (2 : Fin 3) * 1024 + 1 * (j 2).val
    omega

/-- An index of the output is in point t's block iff each coordinate is in the block's range on its axis. -/
theorem mem_blk (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v15).slice (win1_5.rect t)).set ↔ _
  rw [View.set_slice_whole, Rect.mem_set_unit]
  exact Iff.rfl

/-- The blocks cover the output: (b, s, ·) is in the block of point (b, s / 256). -/
theorem cover (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- THE OUTPUT ARRAY after the call: the attention function of the five arrays the call reads. -/
theorem final (c : Dev nD) : (dat1 V c).arrAt 5 cfg1.N
    = attn (V c main_v12) (V c main_v13) (V c main_v14) (V c main_v7) (V c main_arg0) :=
  (dat1 V c).arrAt_eq_of_cover 5 _ (fun t _ => flushed_eq V c t) cover

end Cert.KernelIdeal.Att

end
-- ==== Proof.KProj.lean ====
/-
  What the projection call leaves in its output array, as one function of the two arrays it reads.

  Point t of the 16-point grid writes back rows 512 t … 512 t + 511 of the 8192 x 3072 output: the product of the same
  rows of the activations with the whole weight panel. Entry (r, c) of the block's product is the sum over k of
  activation (r, k) times weight (k, c) (the product goes into a zero accumulator, and the two changes of float format
  are the identity on the extended reals). The 16 blocks tile the array, so the array ends holding, at every (r, c),
  the sum over k of X (r, k) * W (k, c).
-/
import proofs.«139981_j4999341932774_2_alg».proof.Proof.IRegion0
import proofs.«139981_j4999341932774_2_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Proj

open Cert.KernelIdeal Cert.KernelIdeal.Gen Cert.KernelIdeal.Regs
open Idealize.ShloMosaic Idealize.ShloMosaic.TcCoe Idealize.ShloMosaic.ValueIdx Idealize.SL.Sem
open Idealize.ShloMosaic.Pipeline (Dat)

/-- Entry (r, c) of the product of an 8192 x 1024 array with a 1024 x 3072 one. -/
def prodAt (X : FVec Ideal S8192x1024 .f32) (W : FVec Ideal S1024x3072 .bf16) (r : Fin 8192) (c : Fin 3072) : EReal :=
  ∑ k : Fin 1024, X (ix2 r k) * W (ix2 k c)

/-- The product as an array. -/
def prod (X : FVec Ideal S8192x1024 .f32) (W : FVec Ideal S1024x3072 .bf16) : FVec Ideal S8192x3072 .bf16 :=
  fun i => prodAt X W (i 0) (i 1)

/-- The body's stored value at (p, q): the sum over k of lhs (p, k) * rhs (k, q). -/
theorem pay_apply (x0 : Vec Ideal S512x1024 .f32) (x1 : Vec Ideal S1024x3072 .bf16) (p : Fin 512) (q : Fin 3072) :
    k0_pay1 x0 x1 (ix2 p q) = ∑ k : Fin 1024, x0 (ix2 p k) * x1 (ix2 k q) := by
  unfold k0_pay1
  refine (Cert.LibPlainDot.matmul_zero_apply (R := 512) (K := 1024) (C := 3072) dot_S512x1024_S1024x3072_S512x3072_1_0_0_1_n_n_wf none _ _ p q).trans ?_
  refine Finset.sum_congr rfl fun k _ => ?_
  rw [truncf_apply, shapeCast_self, shapeCast_self]

/-- The same at an index given whole. -/
theorem pay_at (x0 : Vec Ideal S512x1024 .f32) (x1 : Vec Ideal S1024x3072 .bf16) (y : S512x3072.Idx) :
    k0_pay1 x0 x1 y = ∑ k : Fin 1024, x0 (ix2 (⟨(y 0).val, idx2_lt0 y⟩ : Fin 512) k) * x1 (ix2 k (⟨(y 1).val, idx2_lt1 y⟩ : Fin 3072)) := by
  obtain ⟨p, q, rfl⟩ : ∃ (p : Fin 512) (q : Fin 3072), y = ix2 p q := ⟨y 0, y 1, eq_ix2 y⟩
  exact pay_apply x0 x1 p q

variable (V : (c : Dev nD) → (b : Ref sig .tc) → Buf (Elt Ideal) ((c : Thread nD τ).loc b))

theorem hz2 : (![0, 0] : Fin 2 → Nat) = fun _ => 0 := funext fun a => by fin_cases a <;> rfl

/-- The block indices, decided over the grid: the activations' block moves with the output's along the rows; the
    weight panel's never moves; nothing moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block row of the output is some point's. -/
theorem idx_onto : ∀ (q0 : Fin 16), ∃ t : Fin cfg0.N, win0_2.index t = ![q0.val, 0] :=
  (by decide +kernel : ∀ (q0 : Fin 16), ∃ t : Fin grid0.N, win0_2.index t = ![q0.val, 0])

/-- WHAT POINT t WRITES BACK is block t of the product of the two arrays the call reads. -/
theorem flushed_eq (c : Dev nD) (t : Fin cfg0.N) :
    (dat0 V c).flushed 2 t = ((cfg0.win 2).blk t).view.read (Elt Ideal) (prod (V c main_v0) (V c main_v5)) := by
  show (cfg0.win 2).cut (grid0.coords t) ((dat0 V c).after 2 t) = _
  rw [after0_2]
  unfold out0_2
  rw [View.canon_unit_zero hz2]
  simp only [View.ld_unit_zero (S := S512x1024) hz2, View.ld_unit_zero (S := S1024x3072) hz2]
  obtain ⟨e0, e1, e2, e3, e4⟩ := idx_facts t
  funext j
  show k0_pay1 (iblk0 V c 0 t) (iblk0 V c 1 t) j = prod (V c main_v0) (V c main_v5) (((cfg0.win 2).blk t).view.emb j)
  refine (pay_at _ _ j).trans ?_
  unfold prod prodAt
  refine Finset.sum_congr rfl fun k _ => ?_
  refine congrArg₂ (· * ·) ?_ ?_
  · show V c main_v0 (((cfg0.win 0).blk t).view.emb _) = V c main_v0 _
    refine congrArg (V c main_v0) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V c main_v5 (((cfg0.win 1).blk t).view.emb _) = V c main_v5 _
    refine congrArg (V c main_v5) ?_
    funext a; apply Fin.ext
    match a with
    | ⟨0, _⟩ => show win0_1.index t (0 : Fin 2) * 1024 + 1 * k.val = k.val; omega
    | ⟨1, _⟩ => show win0_1.index t (1 : Fin 2) * 3072 + 1 * (j 1).val = win0_2.index t (1 : Fin 2) * 3072 + 1 * (j 1).val; omega

/-- An index of the output is in point t's block iff each coordinate is in the block's range on its axis. -/
theorem mem_blk (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v8).slice (win0_2.rect t)).set ↔ _
  rw [View.set_slice_whole, Rect.mem_set_unit]
  exact Iff.rfl

/-- The blocks cover the output: row r is in the block of point r / 512. -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- THE OUTPUT ARRAY after the call: the product of the two arrays the call reads. -/
theorem final (c : Dev nD) : (dat0 V c).arrAt 2 cfg0.N = prod (V c main_v0) (V c main_v5) :=
  (dat0 V c).arrAt_eq_of_cover 2 _ (fun t _ => flushed_eq V c t) cover

end Cert.KernelIdeal.Proj

end
-- ==== Proof.LibNary3.lean ====
/-
  A host operation over a literal family of THREE operand arrays (a concatenation of three pieces).

  Its result is its function applied to the family of the operands' contents; stated with each operand's contents at
  its own array — the family spelt out entry by entry — the contents can be rewritten further one array at a time,
  which the form under a binder over the family's index does not allow.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type} {x a b y : Ref sig .tc}

/-- The result of an operation over the literal family `![x, a, b]`, each operand's contents at its own array. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

/-- What one array holds after a line of host operations, in one simplification pass, with extra rewriting lemmas for
    operations the pass has no rule of its own for (a concatenation of three pieces, stated at its literal arrays). -/
macro "after_results_with" "[" ts:Lean.Parser.Tactic.simpLemma,* "]" : tactic =>
  `(tactic| (simp (disch := decide) only [$ts,*, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same computation by rewriting, one step at a time, for the few steps the simplification pass cannot reach (the
    contents of a piece inside a joined array). -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))

end
-- ==== Proof.LibFlatten.lean ====
/-
  Flattening the two leading axes of a three-axis array, and a row block repeated along a new middle axis, read at an
  index, for any element type and extents.

  * an `[a, b, c]` array viewed as `[n, c]` (`n = a * b`) has, in row `p * b + k`, the entries `(p, k, ·)`; and back;
  * an `[a, c]` array given a unit middle axis and repeated `b` times along it reads `(p, o)` at `(p, k, o)`;
  * a `[1, c]` row given a second unit axis and repeated over `[a, b, c]` reads `(0, o)` at `(p, k, o)`.
  Names no program.
-/
import Idealize.ShloMosaic.Lib.Pipeline.Value
import Idealize.ShloMosaic.Lib.ValueIdx
import Idealize.ShloMosaic.Lib.ValueLayout

namespace Cert.LibFlatten

open Idealize.ShloMosaic Idealize.ShloMosaic.ValueIdx

variable {α : Type}

/-- `[a, b, c]` viewed as `[n, c]`: row `r = p * b + k` holds the entries `(p, k, ·)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (k : Fin b) (d : Fin c) (r : Fin n)
    (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- `[n, c]` viewed as `[a, b, c]`: the entry `(p, k, d)` is row `r = p * b + k`, column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (k : Fin b) (d : Fin c) (r : Fin n)
    (hr : r.val = p.val * b + k.val) :
    shapeCast ⟨3, ![a, b, c]⟩ x h (ix3 p k d) = x (ix2 r d) :=
  shapeCast_apply x h _ _ (by
    rw [Shape.rowMajor_val_two, Shape.rowMajor_val_three]
    show r.val * c + d.val = (p.val * b + k.val) * c + d.val
    rw [hr])

/-- An `[a, c]` array given a unit middle axis and repeated along it reads `(p, o)` at `(p, k, o)`. -/
theorem rows_repeat_apply {a b c : ℕ} (x : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (p : Fin a) (k : Fin b) (o : Fin c) :
    broadcastTo ⟨3, ![a, b, c]⟩ (shapeCast ⟨3, ![a, 1, c]⟩ x hc) hb (ix3 p k o) = x (ix2 p o) := by
  refine (broadcastTo_apply _ hb (ix3 p k o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show p.val * c + o.val = (p.val * 1 + 0) * c + o.val
      rw [Nat.mul_one, Nat.add_zero])

/-- A `[1, c]` row given a second unit axis and repeated over `[a, b, c]` reads `(0, o)` at `(p, k, o)`. -/
theorem row_spread_apply {a b c : ℕ} (x : (⟨2, ![1, c]⟩ : Shape).Idx → α)
    (hc : (⟨2, ![1, c]⟩ : Shape).ShapeCasts ⟨3, ![1, 1, c]⟩)
    (hb : (⟨3, ![1, 1, c]⟩ : Shape).Broadcasts ⟨3, ![a, b, c]⟩) (p : Fin a) (k : Fin b) (o : Fin c) :
    broadcastTo ⟨3, ![a, b, c]⟩ (shapeCast ⟨3, ![1, 1, c]⟩ x hc) hb (ix3 p k o) = x (ix2 (0 : Fin 1) o) := by
  refine (broadcastTo_apply _ hb (ix3 p k o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show 0 * c + o.val = (0 * 1 + 0) * c + o.val
      rfl)

end Cert.LibFlatten
-- ==== Proof.KHost.lean ====
/-
  What the host operations of the kernel program leave in the arrays the two kernel calls read, at an index.

  Before the projection call the activations are viewed as 8192 x 1024 (row 2048 b + s is row (b, s)), and the three
  weight matrices are transposed and joined side by side into a 1024 x 3072 panel, so that column c of the panel is row
  c, c - 1024 or c - 2048 of Wq, Wk or Wv. The projection call leaves the product of the two. Between the calls the
  product's three column blocks are cut out and viewed as 4 x 2048 x 1024: entry (b, s, d) of each is the sum over k of
  X (b, s, k) * W (d, k), the bias-free linear layer of the specification. The output weights are transposed, and the
  activations themselves are never written.
-/
import proofs.«139981_j4999341932774_2_alg».proof.Proof.IRun
import proofs.«139981_j4999341932774_2_alg».proof.Proof.KProj
import proofs.«139981_j4999341932774_2_alg».proof.Proof.Spec
import proofs.«139981_j4999341932774_2_alg».proof.Proof.LibNary3
import proofs.«139981_j4999341932774_2_alg».proof.Proof.LibFlatten
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Host

open Cert.KernelIdeal Cert.KernelIdeal.Gen Cert.KernelIdeal.Regs Cert.Attn
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The five argument arrays as launched. -/
abbrev X : FVec Ideal S4x2048x1024 .f32 := m ((c : Thread nD τ).loc main_arg0)
abbrev Wq : FVec Ideal S1024x1024 .f32 := m ((c : Thread nD τ).loc main_arg1)
abbrev Wk : FVec Ideal S1024x1024 .f32 := m ((c : Thread nD τ).loc main_arg2)
abbrev Wv : FVec Ideal S1024x1024 .f32 := m ((c : Thread nD τ).loc main_arg3)
abbrev Wo : FVec Ideal S1024x1024 .f32 := m ((c : Thread nD τ).loc main_arg4)

/-! ## The operations' terms -/

/-- The activations viewed as 8192 x 1024. -/
theorem v0_term : W1 m ρ c (Proc.devRef .tc main_v0)
    = shapeCast S8192x1024 (X m c) shapeCasts_S4x2048x1024_S8192x1024 := by
  show StableHlo.after hostOps0 _ (Proc.devRef .tc main_v0) = _
  after_results_with [Cert.LibNary3.nary3_result']
  rfl

/-- The transposed output weights. -/
theorem v7_term : W1 m ρ c (Proc.devRef .tc main_v7)
    = truncf (F := Ideal) .bf16 (transpose S1024x1024 [1, 0] (Wo m c) transposes_S1024x1024_S1024x1024_1_0) bitsLt_bf16_f32 := by
  show StableHlo.after hostOps0 _ (Proc.devRef .tc main_v7) = _
  after_results_with [Cert.LibNary3.nary3_result']

/-- The weight panel: the three transposed matrices side by side. -/
theorem v5_term : W1 m ρ c (Proc.devRef .tc main_v5)
    = truncf (F := Ideal) .bf16 (concatenate S1024x3072 1
        [⟨S1024x1024, transpose S1024x1024 [1, 0] (Wq m c) transposes_S1024x1024_S1024x1024_1_0⟩,
         ⟨S1024x1024, transpose S1024x1024 [1, 0] (Wk m c) transposes_S1024x1024_S1024x1024_1_0⟩,
         ⟨S1024x1024, transpose S1024x1024 [1, 0] (Wv m c) transposes_S1024x1024_S1024x1024_1_0⟩]
        concatenates_S1024x1024_S1024x1024_S1024x1024_S1024x3072_d1) bitsLt_bf16_f32 := by
  show StableHlo.after hostOps0 _ (Proc.devRef .tc main_v5) = _
  after_results_with [Cert.LibNary3.nary3_result']
  rfl

/-- The three column blocks of the projection's output, each viewed as 4 x 2048 x 1024. -/
theorem v12_term : W3 m ρ c (Proc.devRef .tc main_v12)
    = shapeCast S4x2048x1024 (extractStridedSlice S8192x1024 ![0, 0] (W2 m ρ c (Proc.devRef .tc main_v8)) slices_S8192x3072_S8192x1024_0_0)
        shapeCasts_S8192x1024_S4x2048x1024 := by
  show StableHlo.after hostOps1 _ (Proc.devRef .tc main_v12) = _
  after_results
  rfl
theorem v13_term : W3 m ρ c (Proc.devRef .tc main_v13)
    = shapeCast S4x2048x1024 (extractStridedSlice S8192x1024 ![0, 1024] (W2 m ρ c (Proc.devRef .tc main_v8)) slices_S8192x3072_S8192x1024_0_1024)
        shapeCasts_S8192x1024_S4x2048x1024 := by
  show StableHlo.after hostOps1 _ (Proc.devRef .tc main_v13) = _
  after_results
  rfl
theorem v14_term : W3 m ρ c (Proc.devRef .tc main_v14)
    = shapeCast S4x2048x1024 (extractStridedSlice S8192x1024 ![0, 2048] (W2 m ρ c (Proc.devRef .tc main_v8)) slices_S8192x3072_S8192x1024_0_2048)
        shapeCasts_S8192x1024_S4x2048x1024 := by
  show StableHlo.after hostOps1 _ (Proc.devRef .tc main_v14) = _
  after_results
  rfl

/-! ## Abstract readings at an index -/

section Abstract
variable {α : Type}

/-- Row 2048 b + s of an 8192-row array. -/
abbrev rowOf (b : Fin 4) (s : Fin 2048) : Fin 8192 := ⟨b.val * 2048 + s.val, by have := b.isLt; have := s.isLt; omega⟩

/-- A column block of an 8192 x 3072 array cut out at column offset off and viewed as 4 x 2048 x 1024 holds, at
    (b, s, d), the array's entry (2048 b + s, off + d). -/
theorem slice_view_apply (P : S8192x3072.Idx → α) (off : Nat) (hs : S8192x3072.Slices ![0, off] S8192x1024)
    (hc : S8192x1024.ShapeCasts S4x2048x1024) (b : Fin 4) (s : Fin 2048) (d : Fin 1024) (col : Fin 3072)
    (hcol : col.val = off + d.val) :
    shapeCast S4x2048x1024 (extractStridedSlice S8192x1024 ![0, off] P hs) hc (ix3 b s d) = P (ix2 (rowOf b s) col) := by
  refine (Cert.LibFlatten.shapeCast_nc_abc_apply (a := 4) (b := 2048) (c := 1024) (n := 8192) _ hc b s d (rowOf b s) rfl).trans ?_
  refine extractStridedSlice_apply ![0, off] P hs (ix2 (rowOf b s) d) (ix2 (rowOf b s) col) fun a => ?_
  match a with
  | ⟨0, _⟩ => exact (Nat.zero_add _).symm
  | ⟨1, _⟩ => exact hcol

/-- Three 1024 x 1024 pieces side by side: column pre + d of the joined array, for pre = 0, 1024, 2048, is column d of
    the first, second, third piece. -/
theorem join3_apply_0 (A B C : S1024x1024.Idx → α)
    (h : Shape.Concatenates (([⟨S1024x1024, A⟩, ⟨S1024x1024, B⟩, ⟨S1024x1024, C⟩] : List ((s : Shape) × (s.Idx → α))).map (·.1)) S1024x3072 1)
    (k d : Fin 1024) (col : Fin 3072) (hcol : col.val = d.val) :
    concatenate S1024x3072 1 [⟨S1024x1024, A⟩, ⟨S1024x1024, B⟩, ⟨S1024x1024, C⟩] h (ix2 k col) = A (ix2 k d) :=
  concatenate_apply_piece (1 : Fin S1024x3072.rank) _ h (ix2 k col) 0 (by show (0 : Nat) < 3; omega) S1024x1024 A rfl rfl 0 rfl (ix2 k d)
    (fun b hb => match b with | ⟨0, _⟩ => rfl | ⟨1, _⟩ => absurd rfl hb)
    (by show 0 + d.val = col.val; omega)
theorem join3_apply_1 (A B C : S1024x1024.Idx → α)
    (h : Shape.Concatenates (([⟨S1024x1024, A⟩, ⟨S1024x1024, B⟩, ⟨S1024x1024, C⟩] : List ((s : Shape) × (s.Idx → α))).map (·.1)) S1024x3072 1)
    (k d : Fin 1024) (col : Fin 3072) (hcol : col.val = 1024 + d.val) :
    concatenate S1024x3072 1 [⟨S1024x1024, A⟩, ⟨S1024x1024, B⟩, ⟨S1024x1024, C⟩] h (ix2 k col) = B (ix2 k d) :=
  concatenate_apply_piece (1 : Fin S1024x3072.rank) _ h (ix2 k col) 1 (by show (1 : Nat) < 3; omega) S1024x1024 B rfl rfl 1024 rfl (ix2 k d)
    (fun b hb => match b with | ⟨0, _⟩ => rfl | ⟨1, _⟩ => absurd rfl hb)
    (by show 1024 + d.val = col.val; omega)
theorem join3_apply_2 (A B C : S1024x1024.Idx → α)
    (h : Shape.Concatenates (([⟨S1024x1024, A⟩, ⟨S1024x1024, B⟩, ⟨S1024x1024, C⟩] : List ((s : Shape) × (s.Idx → α))).map (·.1)) S1024x3072 1)
    (k d : Fin 1024) (col : Fin 3072) (hcol : col.val = 2048 + d.val) :
    concatenate S1024x3072 1 [⟨S1024x1024, A⟩, ⟨S1024x1024, B⟩, ⟨S1024x1024, C⟩] h (ix2 k col) = C (ix2 k d) :=
  concatenate_apply_piece (1 : Fin S1024x3072.rank) _ h (ix2 k col) 2 (by show (2 : Nat) < 3; omega) S1024x1024 C rfl rfl 2048 rfl (ix2 k d)
    (fun b hb => match b with | ⟨0, _⟩ => rfl | ⟨1, _⟩ => absurd rfl hb)
    (by show 2048 + d.val = col.val; omega)

end Abstract

/-! ## The projection's output and its two factors -/

/-- The projection call's output array is the product of the flattened activations and the weight panel. -/
theorem v8_eq : W2 m ρ c (Proc.devRef .tc main_v8) = Proj.prod (U1 m ρ c main_v0) (U1 m ρ c main_v5) :=
  (W2_arr m ρ c 2).trans (Proj.final (U1 m ρ) c)

/-- Row 2048 b + s of the flattened activations is row (b, s). -/
theorem v0_at (b : Fin 4) (s : Fin 2048) (k : Fin 1024) :
    U1 m ρ c main_v0 (ix2 (rowOf b s) k) = X m c (ix3 b s k) := by
  show W1 m ρ c (Proc.devRef .tc main_v0) (ix2 (rowOf b s) k) = _
  rw [v0_term]
  exact Cert.LibFlatten.shapeCast_abc_nc_apply (a := 4) (b := 2048) (c := 1024) (n := 8192) (X m c) _ b s k (rowOf b s) rfl

/-- Column d, 1024 + d, 2048 + d of the weight panel is row d of Wq, Wk, Wv. -/
theorem v5_at_q (k d : Fin 1024) (col : Fin 3072) (hcol : col.val = d.val) :
    U1 m ρ c main_v5 (ix2 k col) = Wq m c (ix2 d k) := by
  show W1 m ρ c (Proc.devRef .tc main_v5) (ix2 k col) = _
  rw [v5_term, truncf_apply, join3_apply_0 _ _ _ _ k d col hcol]
  exact transpose_ix2_apply (Wq m c) _ k d
theorem v5_at_k (k d : Fin 1024) (col : Fin 3072) (hcol : col.val = 1024 + d.val) :
    U1 m ρ c main_v5 (ix2 k col) = Wk m c (ix2 d k) := by
  show W1 m ρ c (Proc.devRef .tc main_v5) (ix2 k col) = _
  rw [v5_term, truncf_apply, join3_apply_1 _ _ _ _ k d col hcol]
  exact transpose_ix2_apply (Wk m c) _ k d
theorem v5_at_v (k d : Fin 1024) (col : Fin 3072) (hcol : col.val = 2048 + d.val) :
    U1 m ρ c main_v5 (ix2 k col) = Wv m c (ix2 d k) := by
  show W1 m ρ c (Proc.devRef .tc main_v5) (ix2 k col) = _
  rw [v5_term, truncf_apply, join3_apply_2 _ _ _ _ k d col hcol]
  exact transpose_ix2_apply (Wv m c) _ k d

/-- Entry (2048 b + s, col) of the product, where column col of the panel is row d of W, is the linear layer's (b, s, d). -/
theorem proj_at (W : FVec Ideal S1024x1024 .f32) (b : Fin 4) (s : Fin 2048) (d : Fin 1024) (col : Fin 3072)
    (hW : ∀ k : Fin 1024, U1 m ρ c main_v5 (ix2 k col) = W (ix2 d k)) :
    Proj.prod (U1 m ρ c main_v0) (U1 m ρ c main_v5) (ix2 (rowOf b s) col) = proj (X m c) W b s d := by
  show Proj.prodAt _ _ (rowOf b s) col = _
  unfold Proj.prodAt proj
  exact Finset.sum_congr rfl fun k _ => by rw [v0_at, hW k]

/-! ## The arrays the attention call reads -/

theorem q_at (b : Fin 4) (s : Fin 2048) (d : Fin 1024) :
    U3 m ρ c main_v12 (ix3 b s d) = proj (X m c) (Wq m c) b s d := by
  show W3 m ρ c (Proc.devRef .tc main_v12) (ix3 b s d) = _
  rw [v12_term, slice_view_apply _ 0 _ _ b s d ⟨d.val, by have := d.isLt; omega⟩ (Nat.zero_add _).symm, v8_eq]
  exact proj_at m ρ c (Wq m c) b s d _ fun k => v5_at_q m ρ c k d _ rfl

theorem k_at (b : Fin 4) (j : Fin 2048) (d : Fin 1024) :
    U3 m ρ c main_v13 (ix3 b j d) = proj (X m c) (Wk m c) b j d := by
  show W3 m ρ c (Proc.devRef .tc main_v13) (ix3 b j d) = _
  rw [v13_term, slice_view_apply _ 1024 _ _ b j d ⟨1024 + d.val, by have := d.isLt; omega⟩ rfl, v8_eq]
  exact proj_at m ρ c (Wk m c) b j d _ fun k => v5_at_k m ρ c k d _ rfl

theorem v_at (b : Fin 4) (j : Fin 2048) (d : Fin 1024) :
    U3 m ρ c main_v14 (ix3 b j d) = proj (X m c) (Wv m c) b j d := by
  show W3 m ρ c (Proc.devRef .tc main_v14) (ix3 b j d) = _
  rw [v14_term, slice_view_apply _ 2048 _ _ b j d ⟨2048 + d.val, by have := d.isLt; omega⟩ rfl, v8_eq]
  exact proj_at m ρ c (Wv m c) b j d _ fun k => v5_at_v m ρ c k d _ rfl

/-- The output weights reach the attention call transposed: no operation between writes them. -/
theorem wot_at (d e : Fin 1024) : U3 m ρ c main_v7 (ix2 d e) = Wo m c (ix2 e d) := by
  show W3 m ρ c (Proc.devRef .tc main_v7) (ix2 d e) = _
  rw [W3_keeps m ρ c main_v7 (by decide), W2_of_ne m ρ c main_v7 (by decide), v7_term, truncf_apply]
  exact transpose_ix2_apply (Wo m c) _ d e

/-- The activations reach the attention call as launched: nothing writes them. -/
theorem xres_eq : U3 m ρ c main_arg0 = X m c :=
  calc W3 m ρ c (Proc.devRef .tc main_arg0)
    _ = W2 m ρ c (Proc.devRef .tc main_arg0) := W3_keeps m ρ c main_arg0 (by decide)
    _ = W1 m ρ c (Proc.devRef .tc main_arg0) := W2_of_ne m ρ c main_arg0 (by decide)
    _ = W0 m ρ c (Proc.devRef .tc main_arg0) := W1_keeps m ρ c main_arg0 (by decide)
    _ = X m c := rfl

end Cert.KernelIdeal.Host

end
-- ==== Proof.KValue.lean ====
/-
  The idealized kernel program's result as one function of its five argument arrays.

  The attention call leaves its output array at the attention function of the arrays it reads; those arrays are, entry
  by entry, the three projections of the activations (the projection call's output, cut into three column bands and
  viewed as 4 x 2048 x 1024), the transposed output weights and the activations themselves. So the result array is the
  specification `G` of the arguments, and the program's run ends with the result at `G` and the arguments unchanged.
-/
import proofs.«139981_j4999341932774_2_alg».proof.Proof.IRun
import proofs.«139981_j4999341932774_2_alg».proof.Proof.KAttn
import proofs.«139981_j4999341932774_2_alg».proof.Proof.KHost
import proofs.«139981_j4999341932774_2_alg».proof.Proof.Spec

noncomputable section

namespace Cert.KernelIdeal.Whole

open Cert.KernelIdeal Cert.KernelIdeal.Gen Cert.KernelIdeal.Regs Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result array's last contents are the specification of the argument arrays. -/
theorem result_eq (c : Dev nD) : W4 m ρ c (Proc.devRef .tc main_v15)
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W4_result, Cert.KernelIdeal.Att.final (U3 m ρ) c]
  funext i
  obtain ⟨b, s, e, rfl⟩ : ∃ (b : Fin 4) (s : Fin 2048) (e : Fin 1024), i = ix3 b s e := ⟨i 0, i 1, i 2, eq_ix3 i⟩
  show Cert.KernelIdeal.Att.attnAt (U3 m ρ c main_v12) (U3 m ρ c main_v13) (U3 m ρ c main_v14) (U3 m ρ c main_v7) (U3 m ρ c main_arg0) b s e
    = outAt _ _ _ _ _ b s e
  unfold Cert.KernelIdeal.Att.attnAt outAt
  refine congr (congr (congr (congr (congr (congrArg rowOut ?_) ?_) ?_) ?_) ?_) rfl
  · funext d; exact Cert.KernelIdeal.Host.q_at m ρ c b s d
  · funext j d; exact Cert.KernelIdeal.Host.k_at m ρ c b j d
  · funext j d; exact Cert.KernelIdeal.Host.v_at m ρ c b j d
  · funext e' d; exact Cert.KernelIdeal.Host.wot_at m ρ c d e'
  · funext e'; exact congrFun (Cert.KernelIdeal.Host.xres_eq m ρ c) (ix3 b s e')

/-- Every weakly fair execution terminates with the result at `G` of the arguments and the arguments unchanged. -/
theorem run : θ_run defs (onTc (τ := τ) (main (F := Ideal))) ⟨m, fun _ => 0, ρ⟩ (fun r => ∀ c : Dev nD,
      r.2.mem ((c.tc : Thread nD τ).loc main_v15)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_main m ρ)

end Cert.KernelIdeal.Whole

end
-- ==== Proof.RefIsG.lean ====
/-
  The reference program's result, stage by stage, is the specification function `Cert.Attn.G` of the five argument
  arrays on the extended reals.

  Each stage of the reference is read at an index built from coordinates and identified with the one-row function of
  the specification it computes: the three projections; the scaled scores (a quotient by sqrt 1024 = 32 is the product
  with 1/32); the row maximum (a fold of max from -inf, and max of -inf with it); the exponentials, their sum (from 0) and
  the quotients; the attended row; the output projection plus the residual; the mean, the centred row, the variance
  and the normalised row.
-/
import proofs.«139981_j4999341932774_2_alg».proof.Proof.Gen.ReferenceIdeal.Read
import proofs.«139981_j4999341932774_2_alg».proof.Proof.Spec
import Idealize.ShloMosaic.PureOps.Ideal.Laws
import Idealize.ShloMosaic.PureOps.Reduce
import Idealize.ShloMosaic.Lib.ValueIdx

noncomputable section

open scoped BigOperators

namespace Cert.RefSide

open Cert.ReferenceIdeal Cert.ReferenceIdeal.Gen Cert.ReferenceIdeal.Read Idealize.ShloMosaic Idealize.ShloMosaic.ValueIdx
open Cert.Attn

/-! ## The literals -/

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 0.03125 denotes the real 1/32. -/
theorem ofBits_scale : Ideal.ofBits .f32 0x3D000000#32 = ((1 / 32 : ℝ) : EReal) := by
  simp [Ideal.ofBits, Ideal.ieee, -EReal.coe_mul]; norm_num

/-- The word of -inf denotes the bottom element. -/
theorem ofBits_negInf : Ideal.ofBits .f32 0xFF800000#32 = (⊥ : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- A quotient by sqrt 1024 is the product with the literal 1/32, on every extended real. -/
theorem div_sqrt_width (X : EReal) :
    Ideal.div X (Ideal.sqrt (Ideal.ofBits .f32 0x44800000#32)) = X * cScale := by
  rw [ofBits_1024, sqrt_1024, Ideal.div_coe (by norm_num : (32 : ℝ) ≠ 0)]
  show X * ((1 / 32 : ℝ) : EReal) = X * Ideal.ofBits .f32 0x3D000000#32
  rw [ofBits_scale]

/-- The maximum of -inf and y is y. -/
theorem max_negInf (y : EReal) : max cNegInf y = y := by
  show max (Ideal.ofBits .f32 0xFF800000#32) y = y
  rw [ofBits_negInf]; exact max_bot_left y

/-! ## The three projections -/

section Stages
variable (x0 : (⟨S4x2048x1024, .f32⟩ : BufTy).Contents (Elt Ideal))
variable (x1 x2 x3 x4 : (⟨S1024x1024, .f32⟩ : BufTy).Contents (Elt Ideal))

theorem v0_ix (b : Fin 4) (s : Fin 2048) (e : Fin 1024) :
    val_main_v0 (F := Ideal) x0 x1 (ix3 b s e) = proj x0 x1 b s e := by
  rw [val_main_v0_apply]
  unfold proj
  refine Finset.sum_congr rfl fun k _ => ?_
  have el : lidx_main_v0 (ix3 b s e) k = ix3 b s k :=
    funext fun a => by match a with | ⟨0, _⟩ => rfl | ⟨1, _⟩ => rfl | ⟨2, _⟩ => rfl
  have er : ridx_main_v0 (ix3 b s e) k = ix2 e k :=
    funext fun a => by match a with | ⟨0, _⟩ => rfl | ⟨1, _⟩ => rfl
  rw [el, er]

theorem v1_ix (b : Fin 4) (s : Fin 2048) (e : Fin 1024) :
    val_main_v1 (F := Ideal) x0 x2 (ix3 b s e) = proj x0 x2 b s e := v0_ix x0 x2 b s e

theorem v2_ix (b : Fin 4) (s : Fin 2048) (e : Fin 1024) :
    val_main_v2 (F := Ideal) x0 x3 (ix3 b s e) = proj x0 x3 b s e := v0_ix x0 x3 b s e

/-! ## The scaled scores -/

/-- The query row of (b, s) and the key and value panels of batch b. -/
abbrev qRow (b : Fin 4) (s : Fin 2048) : Fin 1024 → EReal := fun d => proj x0 x1 b s d
abbrev kPan (b : Fin 4) : Fin 2048 → Fin 1024 → EReal := fun j d => proj x0 x2 b j d
abbrev vPan (b : Fin 4) : Fin 2048 → Fin 1024 → EReal := fun j d => proj x0 x3 b j d

theorem v6_ix (b : Fin 4) (s j : Fin 2048) :
    val_main_v6 (F := Ideal) x0 x1 x2 (ix3 b s j) = score (qRow x0 x1 b s) (kPan x0 x2 b) j := by
  rw [val_main_v6_apply, val_main_v5_apply, val_main_v4_apply, val_main_cst_apply, val_main_v3_apply]
  rw [Ideal.hostDivf_def, Ideal.hostUnary_sqrt_def, Ideal.ofBits_def, div_sqrt_width]
  unfold score
  refine congrArg (· * cScale) (Finset.sum_congr rfl fun k _ => ?_)
  have el : lidx_main_v3 (ix3 b s j) k = ix3 b s k :=
    funext fun a => by match a with | ⟨0, _⟩ => rfl | ⟨1, _⟩ => rfl | ⟨2, _⟩ => rfl
  have er : ridx_main_v3 (ix3 b s j) k = ix3 b j k :=
    funext fun a => by match a with | ⟨0, _⟩ => rfl | ⟨1, _⟩ => rfl | ⟨2, _⟩ => rfl
  rw [el, er, v0_ix, v1_ix]

/-! ## The row maximum -/

/-- The reduced index (b, s) with key coordinate k put back is (b, s, k). -/
theorem lift_keys (h : S4x2048x2048.Reduces [2] S4x2048) (b : Fin 4) (s : Fin 2048) (k : Fin (S4x2048x2048.size 2)) :
    h.lift (ix2 b s) k = ix3 b s (⟨k.val, k.isLt⟩ : Fin 2048) := by
  funext c; apply Fin.ext
  fin_cases c <;> rfl

theorem v7_ix (b : Fin 4) (s : Fin 2048) :
    val_main_v7 (F := Ideal) x0 x1 x2 (ix2 b s) = top (qRow x0 x1 b s) (kPan x0 x2 b) := by
  have h : S4x2048x2048.Reduces [2] S4x2048 := by decide
  unfold val_main_v7
  rw [Host.reduce_eq_fold_single FloatOps.maximumf _ _ reducesTo_S4x2048x2048_S4x2048_d2 h h_S_]
  unfold top
  have hf : (val_main_v6 (F := Ideal) x0 x1 x2 ∘ h.lift (ix2 b s))
      = fun j : Fin 2048 => score (qRow x0 x1 b s) (kPan x0 x2 b) j :=
    funext fun k => (congrArg (val_main_v6 (F := Ideal) x0 x1 x2) (lift_keys h b s k)).trans
      (v6_ix x0 x1 x2 b s ⟨k.val, k.isLt⟩)
  exact congrArg (fun f => Finset.fold max cNegInf f (Finset.univ : Finset (Fin 2048))) hf

theorem v9_ix (b : Fin 4) (s : Fin 2048) :
    val_main_v9 (F := Ideal) x0 x1 x2 (ix2 b s) = top (qRow x0 x1 b s) (kPan x0 x2 b) := by
  rw [val_main_v9_apply, val_main_v8_apply, val_main_cst_1_apply, v7_ix, Ideal.maximumf_def, Ideal.ofBits_def]
  exact max_negInf _

/-- The maximum broadcast back over the keys. -/
theorem v11_ix (b : Fin 4) (s j : Fin 2048) :
    val_main_v11 (F := Ideal) x0 x1 x2 (ix3 b s j) = top (qRow x0 x1 b s) (kPan x0 x2 b) := by
  rw [val_main_v11_apply, val_main_v10_apply]
  have e : idx_main_v10 (idx_main_v11 (ix3 b s j)) = ix2 b s :=
    funext fun a => by match a with | ⟨0, _⟩ => rfl | ⟨1, _⟩ => rfl
  rw [e, v9_ix]

/-! ## The softmax weights -/

theorem v13_ix (b : Fin 4) (s j : Fin 2048) :
    val_main_v13 (F := Ideal) x0 x1 x2 (ix3 b s j) = wgt (qRow x0 x1 b s) (kPan x0 x2 b) j := by
  rw [val_main_v13_apply, val_main_v12_apply, v6_ix, v11_ix, Ideal.hostUnary_exp_def, Ideal.subf_def]
  rfl

theorem v14_ix (b : Fin 4) (s : Fin 2048) :
    val_main_v14 (F := Ideal) x0 x1 x2 (ix2 b s) = den (qRow x0 x1 b s) (kPan x0 x2 b) := by
  rw [val_main_v14_apply, val_main_cst_2_apply, Ideal.ofBits_def, Ideal.ofBits_zero_f32, zero_add]
  unfold den
  refine Finset.sum_congr rfl fun k _ => ?_
  have e : idx_main_v14 (ix2 b s) k = ix3 b s k :=
    funext fun a => by match a with | ⟨0, _⟩ => rfl | ⟨1, _⟩ => rfl | ⟨2, _⟩ => rfl
  rw [e, v13_ix]

theorem v17_ix (b : Fin 4) (s j : Fin 2048) :
    val_main_v17 (F := Ideal) x0 x1 x2 (ix3 b s j) = prob (qRow x0 x1 b s) (kPan x0 x2 b) j := by
  rw [val_main_v17_apply, val_main_v16_apply, val_main_v15_apply]
  have e : idx_main_v15 (idx_main_v16 (ix3 b s j)) = ix2 b s :=
    funext fun a => by match a with | ⟨0, _⟩ => rfl | ⟨1, _⟩ => rfl
  rw [e, v13_ix, v14_ix, Ideal.hostDivf_def]
  rfl

/-! ## The attended row, the output projection and the residual -/

theorem v18_ix (b : Fin 4) (s : Fin 2048) (d : Fin 1024) :
    val_main_v18 (F := Ideal) x0 x1 x2 x3 (ix3 b s d)
      = att (qRow x0 x1 b s) (kPan x0 x2 b) (vPan x0 x3 b) d := by
  rw [val_main_v18_apply]
  unfold att
  refine Finset.sum_congr rfl fun k _ => ?_
  have el : lidx_main_v18 (ix3 b s d) k = ix3 b s k :=
    funext fun a => by match a with | ⟨0, _⟩ => rfl | ⟨1, _⟩ => rfl | ⟨2, _⟩ => rfl
  have er : ridx_main_v18 (ix3 b s d) k = ix3 b k d :=
    funext fun a => by match a with | ⟨0, _⟩ => rfl | ⟨1, _⟩ => rfl | ⟨2, _⟩ => rfl
  rw [el, er, v17_ix, v2_ix]

/-- The output weights as a function of coordinates, and the residual row of (b, s). -/
abbrev woMat : Fin 1024 → Fin 1024 → EReal := fun e' d => x4 (ix2 e' d)
abbrev xRow (b : Fin 4) (s : Fin 2048) : Fin 1024 → EReal := fun e' => x0 (ix3 b s e')

theorem v20_ix (b : Fin 4) (s : Fin 2048) (e : Fin 1024) :
    val_main_v20 (F := Ideal) x0 x1 x2 x3 x4 (ix3 b s e)
      = hid (qRow x0 x1 b s) (kPan x0 x2 b) (vPan x0 x3 b) (woMat x4) (xRow x0 b s) e := by
  rw [val_main_v20_apply, val_main_v19_apply, Ideal.addf_def]
  unfold hid
  refine congrArg (· + x0 (ix3 b s e)) (Finset.sum_congr rfl fun k _ => ?_)
  have el : lidx_main_v19 (ix3 b s e) k = ix3 b s k :=
    funext fun a => by match a with | ⟨0, _⟩ => rfl | ⟨1, _⟩ => rfl | ⟨2, _⟩ => rfl
  have er : ridx_main_v19 (ix3 b s e) k = ix2 e k :=
    funext fun a => by match a with | ⟨0, _⟩ => rfl | ⟨1, _⟩ => rfl
  rw [el, er, v18_ix]

/-! ## The layer normalisation -/

theorem v21_ix (b : Fin 4) (s : Fin 2048) :
    val_main_v21 (F := Ideal) x0 x1 x2 x3 x4 (ix2 b s)
      = ∑ e : Fin 1024, hid (qRow x0 x1 b s) (kPan x0 x2 b) (vPan x0 x3 b) (woMat x4) (xRow x0 b s) e := by
  rw [val_main_v21_apply, val_main_cst_3_apply, Ideal.ofBits_def, Ideal.ofBits_zero_f32, zero_add]
  refine Finset.sum_congr rfl fun k _ => ?_
  have e : idx_main_v21 (ix2 b s) k = ix3 b s k :=
    funext fun a => by match a with | ⟨0, _⟩ => rfl | ⟨1, _⟩ => rfl | ⟨2, _⟩ => rfl
  rw [e, v20_ix]

/-- The mean, at any index of the one-column array lying over (b, s). -/
theorem v24_ix (b : Fin 4) (s : Fin 2048) (i : S4x2048x1.Idx) (hi : idx_main_v22 i = ix2 b s) :
    val_main_v24 (F := Ideal) x0 x1 x2 x3 x4 i
      = mean (qRow x0 x1 b s) (kPan x0 x2 b) (vPan x0 x3 b) (woMat x4) (xRow x0 b s) := by
  rw [val_main_v24_apply, val_main_v22_apply, val_main_v23_apply, val_main_cst_4_apply, hi, v21_ix,
    Ideal.hostDivf_def, Ideal.ofBits_def]
  rfl

theorem v25_ix (b : Fin 4) (s : Fin 2048) (e : Fin 1024) :
    val_main_v25 (F := Ideal) x0 x1 x2 x3 x4 (ix3 b s e)
      = mean (qRow x0 x1 b s) (kPan x0 x2 b) (vPan x0 x3 b) (woMat x4) (xRow x0 b s) := by
  rw [val_main_v25_apply]
  exact v24_ix x0 x1 x2 x3 x4 b s _
    (funext fun a => by match a with | ⟨0, _⟩ => rfl | ⟨1, _⟩ => rfl)

theorem v32_ix (b : Fin 4) (s : Fin 2048) (e : Fin 1024) :
    val_main_v32 (F := Ideal) x0 x1 x2 x3 x4 (ix3 b s e)
      = mean (qRow x0 x1 b s) (kPan x0 x2 b) (vPan x0 x3 b) (woMat x4) (xRow x0 b s) := by
  rw [val_main_v32_apply]
  exact v24_ix x0 x1 x2 x3 x4 b s _
    (funext fun a => by match a with | ⟨0, _⟩ => rfl | ⟨1, _⟩ => rfl)

theorem v26_ix (b : Fin 4) (s : Fin 2048) (e : Fin 1024) :
    val_main_v26 (F := Ideal) x0 x1 x2 x3 x4 (ix3 b s e)
      = dev (qRow x0 x1 b s) (kPan x0 x2 b) (vPan x0 x3 b) (woMat x4) (xRow x0 b s) e := by
  rw [val_main_v26_apply, v20_ix, v25_ix, Ideal.subf_def]
  rfl

theorem v33_ix (b : Fin 4) (s : Fin 2048) (e : Fin 1024) :
    val_main_v33 (F := Ideal) x0 x1 x2 x3 x4 (ix3 b s e)
      = dev (qRow x0 x1 b s) (kPan x0 x2 b) (vPan x0 x3 b) (woMat x4) (xRow x0 b s) e := by
  rw [val_main_v33_apply, v20_ix, v32_ix, Ideal.subf_def]
  rfl

theorem v28_ix (b : Fin 4) (s : Fin 2048) :
    val_main_v28 (F := Ideal) x0 x1 x2 x3 x4 (ix2 b s)
      = ∑ e : Fin 1024, dev (qRow x0 x1 b s) (kPan x0 x2 b) (vPan x0 x3 b) (woMat x4) (xRow x0 b s) e
          * dev (qRow x0 x1 b s) (kPan x0 x2 b) (vPan x0 x3 b) (woMat x4) (xRow x0 b s) e := by
  rw [val_main_v28_apply, val_main_cst_5_apply, Ideal.ofBits_def, Ideal.ofBits_zero_f32, zero_add]
  refine Finset.sum_congr rfl fun k _ => ?_
  have e : idx_main_v28 (ix2 b s) k = ix3 b s k :=
    funext fun a => by match a with | ⟨0, _⟩ => rfl | ⟨1, _⟩ => rfl | ⟨2, _⟩ => rfl
  rw [e, val_main_v27_apply, v26_ix, Ideal.mulf_def]

/-- The reciprocal square root of the variance plus the literal, broadcast back over the features. -/
theorem v37_ix (b : Fin 4) (s : Fin 2048) (e : Fin 1024) :
    val_main_v37 (F := Ideal) x0 x1 x2 x3 x4 (ix3 b s e)
      = Ideal.rsqrt (var (qRow x0 x1 b s) (kPan x0 x2 b) (vPan x0 x3 b) (woMat x4) (xRow x0 b s) + cEps) := by
  rw [val_main_v37_apply, val_main_v36_apply, val_main_v35_apply, val_main_v34_apply, val_main_cst_7_apply,
    val_main_v31_apply, val_main_v30_apply, val_main_cst_6_apply, val_main_v29_apply]
  have e' : idx_main_v29 (idx_main_v37 (ix3 b s e)) = ix2 b s :=
    funext fun a => by match a with | ⟨0, _⟩ => rfl | ⟨1, _⟩ => rfl
  rw [e', v28_ix, Ideal.hostUnary_rsqrt_def, Ideal.addf_def, Ideal.hostDivf_def, Ideal.ofBits_def, Ideal.ofBits_def]
  rfl

theorem v38_ix (b : Fin 4) (s : Fin 2048) (e : Fin 1024) :
    val_main_v38 (F := Ideal) x0 x1 x2 x3 x4 (ix3 b s e) = outAt x0 x1 x2 x3 x4 b s e := by
  rw [val_main_v38_apply, v33_ix, v37_ix, Ideal.mulf_def]
  rfl

end Stages

/-- The reference's result is the specification function of the five argument arrays. -/
theorem ref_eq_G (x0 : (⟨Cert.ReferenceIdeal.S4x2048x1024, .f32⟩ : BufTy).Contents (Elt Ideal))
    (x1 x2 x3 x4 : (⟨Cert.ReferenceIdeal.S1024x1024, .f32⟩ : BufTy).Contents (Elt Ideal)) :
    Cert.ReferenceIdeal.Read.val_main_v38 (F := Ideal) x0 x1 x2 x3 x4 = Cert.Attn.G x0 x1 x2 x3 x4 := by
  funext i
  obtain ⟨b, s, e, rfl⟩ : ∃ b s e, i = ix3 b s e := ⟨i 0, i 1, i 2, eq_ix3 i⟩
  rw [G_ix3]
  exact v38_ix x0 x1 x2 x3 x4 b s e

end Cert.RefSide

end
-- ==== Proof.lean ====
/-
  Single-head attention (B = 4, S = 2048, D = 1024) with an output projection, a residual and a layer normalisation:
  two kernel calls against a plain reference, equal on the extended reals.

  The kernel program projects the activations once against the three weight matrices laid side by side (one grid axis
  of 16 row blocks), cuts the product into queries, keys and values, and then, per batch and per block of 256 query
  rows, forms the scores against all 2048 keys scaled by 1/32, a softmax over the keys, the weighted sum of the values,
  the output projection plus the residual, and a layer normalisation over the 1024 features. The reference does the
  same with whole-array products, dividing the scores by the square root of 1024. On the extended reals a change of float
  format is the identity, a product into a zero accumulator is the plain sum of products, and sqrt 1024 = 32 with
  x / 32 = x * (1/32) for every extended real, so both results are the one function `Cert.Attn.G` of the five argument
  arrays, entry by entry; no law is used that needs the inputs finite, and the precondition is never opened.

  Each program's frame (it terminates, nothing faults, the argument arrays end as launched) comes from its run: the
  kernel program's as four items — host operations, the projection call, host operations, the attention call — whose
  buffer contents are folded from the launch memory; the reference's from its run read back as host operations. The
  idealization rewrote no operation, so there is nothing to preserve.
-/
import proofs.«139981_j4999341932774_2_alg».proof.Defs
import proofs.«139981_j4999341932774_2_alg».proof.Proof.Gen.Kernel
import proofs.«139981_j4999341932774_2_alg».proof.Proof.Gen.KernelIdeal
import proofs.«139981_j4999341932774_2_alg».proof.Proof.Gen.ReferenceIdeal
import proofs.«139981_j4999341932774_2_alg».proof.Proof.Gen.Pre_finite_inputs
import proofs.«139981_j4999341932774_2_alg».proof.Proof.Gen.ReferenceIdeal.Run
import proofs.«139981_j4999341932774_2_alg».proof.Proof.Gen.ReferenceIdeal.Read
import proofs.«139981_j4999341932774_2_alg».proof.Proof.BRun
import proofs.«139981_j4999341932774_2_alg».proof.Proof.IRun
import proofs.«139981_j4999341932774_2_alg».proof.Proof.KValue
import proofs.«139981_j4999341932774_2_alg».proof.Proof.RefIsG
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Regs.frame m ρ

theorem frame_ki : Cert.frame_KernelIdeal (hKernelIdeal := Cert.KernelIdeal.Gen.facts) (hPre_finite_inputs := Cert.Pre_finite_inputs.Gen.facts) :=
  fun m ρ _ => Cert.KernelIdeal.Regs.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at `Cert.Attn.G` of argument arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefSide.ref_eq_G,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
